-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x10 : Shape := ⟨2, ![4000000, 10]⟩
abbrev S10x1 : Shape := ⟨2, ![10, 1]⟩
abbrev S_ : Shape := ⟨0, ![]⟩

class Facts : Prop where
  bcast_S_S4000000x10 : S_.BroadcastsInDim S4000000x10 (![] : Fin 0 → Fin S4000000x10.rank)
  reducesTo_S4000000x10_S_d0_1 : S4000000x10.ReducesTo [0, 1] S_
  h_S_ : 0 < S_.numel
  bcast_S_S10x1 : S_.BroadcastsInDim S10x1 (![] : Fin 0 → Fin S10x1.rank)
  reducesTo_S10x1_S_d0_1 : S10x1.ReducesTo [0, 1] S_

variable [Facts]

def fn {F : FTy → Type} [FloatOps F] (main_arg0 : FVec F S4000000x10 .f32) (main_arg1 : FVec F S10x1 .f32) : IVec S_ 1 :=
  let main_v0 : FVec F S4000000x10 .f32 := Host.absf main_arg0
  let main_cst : FVec F S_ .f32 := constant S_ .f32 0x7F800000#32
  let main_v1 : FVec F S4000000x10 .f32 := broadcastInDim S4000000x10 ![] bcast_S_S4000000x10 main_cst
  let main_v2 : IVec S4000000x10 1 := cmpf .olt main_v0 main_v1
  let main_c : IVec S_ 1 := constantI S_ 1 1#1
  let main_v3 : IVec S_ 1 := (fun x v => Host.reduce IntOp.andi x v reducesTo_S4000000x10_S_d0_1 h_S_) main_v2 main_c
  let main_v4 : FVec F S10x1 .f32 := Host.absf main_arg1
  let main_cst_0 : FVec F S_ .f32 := constant S_ .f32 0x7F800000#32
  let main_v5 : FVec F S10x1 .f32 := broadcastInDim S10x1 ![] bcast_S_S10x1 main_cst_0
  let main_v6 : IVec S10x1 1 := cmpf .olt main_v4 main_v5
  let main_c_1 : IVec S_ 1 := constantI S_ 1 1#1
  let main_v7 : IVec S_ 1 := (fun x v => Host.reduce IntOp.andi x v reducesTo_S10x1_S_d0_1 h_S_) main_v6 main_c_1
  let main_v8 : IVec S_ 1 := andi main_v3 main_v7
  main_v8
-- ==== Kernel.lean ====
abbrev S4000000x10 : Shape := ⟨2, ![4000000, 10]⟩
abbrev S10x1 : Shape := ⟨2, ![10, 1]⟩
abbrev S1x10 : Shape := ⟨2, ![1, 10]⟩
abbrev S16000x10 : Shape := ⟨2, ![16000, 10]⟩

abbrev nBuf : Space → Nat
  | .hbm => 4
  | .vmem => 5
  | .smem => 0
  | _ => 0

abbrev bufTy : (tb : Table) → Fin (tcTables nBuf tb) → BufTy
  | .hbm, ⟨0, _⟩ => ⟨S4000000x10, .f32⟩
  | .hbm, ⟨1, _⟩ => ⟨S10x1, .f32⟩
  | .hbm, ⟨2, _⟩ => ⟨S1x10, .f32⟩
  | .hbm, ⟨3, _⟩ => ⟨S4000000x10, .f32⟩
  | .local _ .vmem, ⟨0, _⟩ => ⟨S16000x10, .f32⟩
  | .local _ .vmem, ⟨1, _⟩ => ⟨S16000x10, .f32⟩
  | .local _ .vmem, ⟨2, _⟩ => ⟨S1x10, .f32⟩
  | .local _ .vmem, ⟨3, _⟩ => ⟨S16000x10, .f32⟩
  | .local _ .vmem, ⟨4, _⟩ => ⟨S16000x10, .f32⟩
  | _, _ => ⟨S4000000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16000x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S10x1_S1x10 : S10x1.ShapeCasts S1x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S16000x10 : S1x10.Broadcasts S16000x10
  inb_S16000x10_S16000x10_0_0 : ∀ a, (![0, 0] : Fin 2 → Nat) a + S16000x10.size a ≤ S16000x10.size a
  h_S16000x10 : 0 < S16000x10.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x10.size a ≤ S4000000x10.size a
  hwx0_0 : ∀ i : grid0.Coords, EltTy.bits .f32 = 32 ∨ (Rect.block (s := S4000000x10) S16000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x10.size a ≤ S1x10.size a
  hwx0_1 : ∀ i : grid0.Coords, EltTy.bits .f32 = 32 ∨ (Rect.block (s := S1x10) S1x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x10.size a ≤ S4000000x10.size a
  hwx0_2 : ∀ i : grid0.Coords, EltTy.bits .f32 = 32 ∨ (Rect.block (s := S4000000x10) S16000x10.size (cc0_transform_2 i) (hinb0_2 i)).WholeWords (EltTy.packing .f32)

variable [Facts₀]

abbrev win0_0 : Pipeline.Window sig grid0 :=
  Pipeline.Window.ofSpec (Memref.whole main_arg0) S16000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16000x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x10 : Shape := ⟨2, ![4000000, 10]⟩
abbrev S10x1 : Shape := ⟨2, ![10, 1]⟩
abbrev S10 : Shape := ⟨1, ![10]⟩
abbrev S1x10 : Shape := ⟨2, ![1, 10]⟩

abbrev nBuf : Space → Nat
  | .hbm => 7
  | .vmem => 0
  | .smem => 0
  | _ => 0

abbrev bufTy : (tb : Table) → Fin (tcTables nBuf tb) → BufTy
  | .hbm, ⟨0, _⟩ => ⟨S4000000x10, .f32⟩
  | .hbm, ⟨1, _⟩ => ⟨S10x1, .f32⟩
  | .hbm, ⟨2, _⟩ => ⟨S10, .f32⟩
  | .hbm, ⟨3, _⟩ => ⟨S10, .f32⟩
  | .hbm, ⟨4, _⟩ => ⟨S1x10, .f32⟩
  | .hbm, ⟨5, _⟩ => ⟨S4000000x10, .f32⟩
  | .hbm, ⟨6, _⟩ => ⟨S4000000x10, .f32⟩
  | _, _ => ⟨S4000000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  shapeCasts_S10x1_S10 : S10x1.ShapeCasts S10
  bcast_S10_S1x10_1 : S10.BroadcastsInDim S1x10 (![1] : Fin 1 → Fin S1x10.rank)
  bcast_S1x10_S4000000x10_0_1 : S1x10.BroadcastsInDim S4000000x10 (![0, 1] : Fin 2 → Fin S4000000x10.rank)

variable [Facts₀]

class Facts : Prop extends Facts₀ where

variable [Facts]
-- ==== Proof.ColumnScale.lean ====
/-
  The function both programs compute: every row of a 4000000 × 10 table multiplied, entry by entry, by the squares of
  a column of ten weights,

      out[r, j] = x[r, j] · (w[j, 0] · w[j, 0]).

  Stated over the operations of any float instance, so that both sides are read against literally the same term: the
  square is the product of the weight with itself and is the right factor of the outer product, exactly as both
  programs compute it. No law of arithmetic is needed to join them — only where each side reads the weight.
-/
import Idealize.ShloMosaic.PureOps.Ideal
import Idealize.ShloMosaic.Lib.ValueIdx

noncomputable section

namespace Cert.ColumnScale

open Idealize.ShloMosaic Idealize.ShloMosaic.ValueIdx

variable {F : FTy → Type} [FloatOps F]

/-- The table's shape: 4000000 rows of 10 columns. -/
abbrev Table : Shape := ⟨2, ![4000000, 10]⟩
/-- The weights' shape: a column of 10 entries. -/
abbrev Weights : Shape := ⟨2, ![10, 1]⟩

/-- Where the weight of column `j` sits in the weight column: entry (j, 0). -/
abbrev weightAt (j : Fin 10) : Weights.Idx := ix2 j (0 : Fin 1)

/-- The table with column `j` scaled by the square of weight `j`. -/
def scaled (x : Vec F Table .f32) (w : Vec F Weights .f32) : Vec F Table .f32 :=
  fun i => FloatOps.mulf (x i) (FloatOps.mulf (w (weightAt (i 1))) (w (weightAt (i 1))))

theorem scaled_apply (x : Vec F Table .f32) (w : Vec F Weights .f32) (i : Table.Idx) :
    scaled x w i = FloatOps.mulf (x i) (FloatOps.mulf (w (weightAt (i 1))) (w (weightAt (i 1)))) := rfl

end Cert.ColumnScale

end
-- ==== Proof.ReferenceScaled.lean ====
/-
  The reference computes the scaled table: it flattens the weight column to a vector of ten, squares it entry by
  entry, lays the squares out as one row, repeats that row down the 4000000 rows and multiplies the table by it. Read at
  an entry (r, j) this is x[r, j] times the square of the flattened vector's entry j, and flattening a column of ten
  keeps the order of its entries: entry j of the vector is entry (j, 0) of the column.
-/
import proofs.«133401_j19610820673536_1_alg».proof.Proof.Gen.ReferenceIdeal.Read
import proofs.«133401_j19610820673536_1_alg».proof.Proof.ColumnScale

noncomputable section

namespace Cert.ReferenceIdeal.Scaled

open Cert.ReferenceIdeal Cert.ReferenceIdeal.Read Idealize.ShloMosaic Idealize.ShloMosaic.ValueIdx Cert.ColumnScale

variable {F : FTy → Type} [FloatOps F]

/-- Through the two broadcasts and the flattening, entry (r, j) of the result reads the weight column at (j, 0). -/
theorem weight_index (i : S4000000x10.Idx) : idx_main_v0 (idx_main_v2 (idx_main_v3 i)) = weightAt (i 1) := by
  funext a
  apply Fin.ext
  match a with
  | ⟨0, _⟩ => exact Nat.div_one _
  | ⟨1, _⟩ => rfl

/-- The reference's last stage is the scaled table. -/
theorem result_eq (x : (⟨S4000000x10, .f32⟩ : BufTy).Contents (Elt F)) (w : (⟨S10x1, .f32⟩ : BufTy).Contents (Elt F)) :
    val_main_v4 (F := F) x w = scaled x w := by
  funext i
  rw [val_main_v4_apply, val_main_v3_apply, val_main_v2_apply, val_main_v1_apply, val_main_v0_apply, weight_index]
  rfl

end Cert.ReferenceIdeal.Scaled

end
-- ==== Proof.KernelScaled.lean ====
/-
  The kernel computes the scaled table, block by block. The host first lays the weight column out as one row of ten
  (a reshape, which keeps the order of the entries: entry (0, j) of the row is entry (j, 0) of the column). The grid has
  250 points; point t stages rows 16000·t … 16000·t + 15999 of the table and the whole weight row, multiplies every
  staged row entry by entry with the row of squared weights, and writes the product back over the same rows of the
  result. So what point t writes back is block t of the scaled table, and the 250 blocks tile the 4000000 rows: the
  result array ends holding the scaled table.
-/
import proofs.«133401_j19610820673536_1_alg».proof.Proof.Gen.KernelIdeal.Value
import proofs.«133401_j19610820673536_1_alg».proof.Proof.ColumnScale
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Scaled

open Cert.KernelIdeal Cert.KernelIdeal.Gen Cert.KernelIdeal.Value Idealize.ShloMosaic.ValueIdx Cert.ColumnScale

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-! ## The weight row the region finds -/

/-- The region finds the weight row as the host's reshape of the weight column. -/
theorem row_eq (c : Dev nD) :
    (V m c main_v0 : S1x10.Idx → Elt F .f32) = shapeCast S1x10 (m ((c : Thread nD τ).loc main_arg1)) shapeCasts_S10x1_S1x10 := by
  dsimp only [Gen.V, Gen.hostOps0]
  after_results
  rfl

/-- Entry (0, j) of the weight row is entry (j, 0) of the weight column: both are at position j in row-major order. -/
theorem row_apply (c : Dev nD) (j : Fin 10) :
    (V m c main_v0 : S1x10.Idx → Elt F .f32) (ix2 (0 : Fin 1) j) = m ((c : Thread nD τ).loc main_arg1) (weightAt j) := by
  rw [row_eq]
  refine shapeCast_apply _ shapeCasts_S10x1_S1x10 (ix2 (0 : Fin 1) j) (weightAt j) ?_
  rw [Shape.rowMajor_val_two, Shape.rowMajor_val_two]
  show j.val * 1 + 0 = 0 * 10 + j.val
  omega

/-! ## What the body leaves in the output block -/

/-- From a staged block of rows `x0` and the staged weight row `x1`, the body leaves at (r, j) the product of
    `x0` at (r, j) with the square of `x1` at (0, j). -/
theorem body_apply (x0 : Vec F S16000x10 .f32) (x1 : Vec F S1x10 .f32) (y : S16000x10.Idx) :
    out0_2 x0 x1 y = FloatOps.mulf (x0 y) (FloatOps.mulf (x1 (ix2 (0 : Fin 1) (y 1))) (x1 (ix2 (0 : Fin 1) (y 1)))) := by
  unfold out0_2
  rw [canon2_eq, View.ld_unit_zero (S := S16000x10) zero_offsets, View.ld_unit_zero (S := S1x10) zero_offsets]
  have e0 : ix2_0 y = y := funext fun a => Fin.ext (by match a with | ⟨0, _⟩ => rfl | ⟨1, _⟩ => rfl)
  have e1 : ix2_1 y = ix2 (0 : Fin 1) (y 1) := funext fun a => Fin.ext (by match a with | ⟨0, _⟩ => rfl | ⟨1, _⟩ => rfl)
  have e2 : ix2_2 y = ix2 (0 : Fin 1) (y 1) := funext fun a => Fin.ext (by match a with | ⟨0, _⟩ => rfl | ⟨1, _⟩ => rfl)
  show FloatOps.mulf (x0 (ix2_0 y)) (FloatOps.mulf (x1 (ix2_1 y)) (x1 (ix2_2 y))) = _
  rw [e0, e1, e2]
  rfl

/-! ## The blocks -/

/-- The printed index maps, decided over the 250 grid points: at point `t` the table's and the result's block is
    block `t` of the rows (all ten columns), the weight row's block is the whole row. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the scaled table (of the table and the weight column as the region
    finds them). -/
theorem flushed_eq (c : Dev nD) (t : Fin cfg0.N) :
    (dats m 0 c).flushed 2 t
      = ((cfg0.win 2).blk t).view.read (Elt F) (scaled (V m c main_arg0) (m ((c : Thread nD τ).loc main_arg1))) := by
  rw [flushed2]
  obtain ⟨a0, a1, b0, b1, o0, o1⟩ := index_facts t
  funext j
  have hj0 : (j 0).val < 16000 := (j 0).isLt
  have hj1 : (j 1).val < 10 := (j 1).isLt
  show out0_2 (iblk m c 0 t) (iblk m c 1 t) j = scaled (V m c main_arg0) (m ((c : Thread nD τ).loc main_arg1)) (((cfg0.win 2).blk t).view.emb j)
  refine (body_apply (iblk m c 0 t) (iblk m c 1 t) j).trans ?_
  rw [scaled_apply]
  -- the staged rows are the table's rows under the output block
  have hx : iblk m c 0 t j = V m c main_arg0 (((cfg0.win 2).blk t).view.emb j) := by
    show V m c main_arg0 (((cfg0.win 0).blk t).view.emb j) = V m c main_arg0 (((cfg0.win 2).blk t).view.emb j)
    refine congrArg (V m c main_arg0 : S4000000x10.Idx → Elt F .f32) (funext fun a => Fin.ext ?_)
    match a with
    | ⟨0, _⟩ => show win0_0.index t (0 : Fin 2) * 16000 + 1 * (j 0).val = win0_2.index t (0 : Fin 2) * 16000 + 1 * (j 0).val; omega
    | ⟨1, _⟩ => show win0_0.index t (1 : Fin 2) * 10 + 1 * (j 1).val = win0_2.index t (1 : Fin 2) * 10 + 1 * (j 1).val; omega
  -- the staged weight row is the whole weight row, and its entry (0, j) the weight column's entry (j, 0)
  have hw : iblk m c 1 t (ix2 (0 : Fin 1) (j 1)) = m ((c : Thread nD τ).loc main_arg1) (weightAt ((((cfg0.win 2).blk t).view.emb j) 1)) := by
    have hcol : ((((cfg0.win 2).blk t).view.emb j) 1) = j 1 := by
      apply Fin.ext
      show win0_2.index t (1 : Fin 2) * 10 + 1 * (j 1).val = (j 1).val
      omega
    rw [hcol, ← row_apply m c (j 1)]
    show V m c main_v0 (((cfg0.win 1).blk t).view.emb (ix2 (0 : Fin 1) (j 1))) = V m c main_v0 (ix2 (0 : Fin 1) (j 1))
    refine congrArg (V m c main_v0 : S1x10.Idx → Elt F .f32) (funext fun a => Fin.ext ?_)
    match a with
    | ⟨0, _⟩ => show win0_1.index t (0 : Fin 2) * 1 + 1 * 0 = 0; omega
    | ⟨1, _⟩ => show win0_1.index t (1 : Fin 2) * 10 + 1 * (j 1).val = (j 1).val; omega
  rw [hx, hw]

/-- An entry of the result is in point `t`'s block iff each of its coordinates is in the block's range. -/
theorem mem_blk (t : Fin cfg0.N) (i : S4000000x10.Idx) :
    i ∈ ((cfg0.win 2).blk t).view.set ↔ ∀ a : Fin 2, win0_2.index t a * S16000x10.size a ≤ (i a).val ∧ (i a).val < win0_2.index t a * S16000x10.size a + S16000x10.size a := by
  show i ∈ ((View.whole main_v1).slice (win0_2.rect t)).set ↔ _
  rw [View.set_slice_whole, Rect.mem_set_unit]
  exact Iff.rfl

/-- Every entry of the result is in some point's block: row `r` is in the block of point `r / 16000`. -/
theorem covered (i : S4000000x10.Idx) :
    ∃ t : Fin cfg0.N, (cfg0.win 2).flush t = true ∧ i ∈ ((cfg0.win 2).blk t).view.set := by
  have hi0 : (i 0).val < 4000000 := (i 0).isLt
  have hi1 : (i 1).val < 10 := (i 1).isLt
  have hN : cfg0.N = 250 := N_0
  have ht : (i 0).val / 16000 < cfg0.N := by rw [hN]; omega
  obtain ⟨_, _, _, _, o0, o1⟩ := index_facts ⟨(i 0).val / 16000, ht⟩
  refine ⟨⟨(i 0).val / 16000, ht⟩, flush0_2 _, ?_⟩
  rw [mem_blk]
  intro a
  match a with
  | ⟨0, _⟩ =>
    show win0_2.index ⟨(i 0).val / 16000, ht⟩ (0 : Fin 2) * 16000 ≤ (i 0).val ∧ (i 0).val < win0_2.index ⟨(i 0).val / 16000, ht⟩ (0 : Fin 2) * 16000 + 16000
    rw [o0]
    show (i 0).val / 16000 * 16000 ≤ (i 0).val ∧ (i 0).val < (i 0).val / 16000 * 16000 + 16000
    omega
  | ⟨1, _⟩ =>
    show win0_2.index ⟨(i 0).val / 16000, ht⟩ (1 : Fin 2) * 10 ≤ (i 1).val ∧ (i 1).val < win0_2.index ⟨(i 0).val / 16000, ht⟩ (1 : Fin 2) * 10 + 10
    rw [o1]
    omega

/-! ## The result array and the run -/

/-- After the run the result array holds the scaled table of the arguments as launched. -/
theorem final (c : Dev nD) :
    (dats m 0 c).arrAt 2 cfg0.N = scaled (m ((c : Thread nD τ).loc main_arg0)) (m ((c : Thread nD τ).loc main_arg1)) := by
  rw [← V_main_arg0 m c]
  exact (dats m 0 c).arrAt_eq_of_cover 2 (scaled (V m c main_arg0) (m ((c : Thread nD τ).loc main_arg1)))
    (fun t _ => flushed_eq m c t) covered

/-- Every weakly fair execution of the kernel's program terminates with the result array at the scaled table and the
    arguments unchanged. -/
theorem run : θ_run defs (onTc (τ := τ) (main (F := F))) ⟨m, fun _ => 0, ρ⟩ fun r => ∀ c : Dev nD,
      r.2.mem ((c : Thread nD τ).loc main_v1) = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Scaled

end
-- ==== Proof.lean ====
/-
  The proof of `Cert.Claim`. The kernel multiplies a 4000000 × 10 table, column by column, by the squares of ten
  weights: out[r, j] = x[r, j] · (w[j, 0] · w[j, 0]). It does so in 250 blocks of 16000 rows, against a weight row the
  host lays out from the weight column; the reference does it in one pass over a flattened, squared and broadcast weight
  vector. Read at an entry, both are the same product of the same three numbers (`Cert.ColumnScale.scaled`), so the two
  results are equal over the extended reals with no law of arithmetic and no use of the inputs' finiteness.
  The three frames are the generated frame runs (the reference's is its generated run with the result dropped), and the
  idealization rewrote nothing, so there is nothing to preserve.
-/
import proofs.«133401_j19610820673536_1_alg».proof.Defs
import proofs.«133401_j19610820673536_1_alg».proof.Proof.Gen.Kernel
import proofs.«133401_j19610820673536_1_alg».proof.Proof.Gen.Kernel.Skeleton
import proofs.«133401_j19610820673536_1_alg».proof.Proof.Gen.Kernel.Launch
import proofs.«133401_j19610820673536_1_alg».proof.Proof.Gen.Kernel.Points
import proofs.«133401_j19610820673536_1_alg».proof.Proof.Gen.Kernel.Frame
import proofs.«133401_j19610820673536_1_alg».proof.Proof.Gen.KernelIdeal
import proofs.«133401_j19610820673536_1_alg».proof.Proof.Gen.KernelIdeal.Skeleton
import proofs.«133401_j19610820673536_1_alg».proof.Proof.Gen.KernelIdeal.Launch
import proofs.«133401_j19610820673536_1_alg».proof.Proof.Gen.KernelIdeal.Points
import proofs.«133401_j19610820673536_1_alg».proof.Proof.Gen.KernelIdeal.Frame
import proofs.«133401_j19610820673536_1_alg».proof.Proof.Gen.ReferenceIdeal
import proofs.«133401_j19610820673536_1_alg».proof.Proof.Gen.Pre_finite_inputs
import proofs.«133401_j19610820673536_1_alg».proof.Proof.Gen.KernelIdeal.Value
import proofs.«133401_j19610820673536_1_alg».proof.Proof.Gen.ReferenceIdeal.Run
import proofs.«133401_j19610820673536_1_alg».proof.Proof.Gen.ReferenceIdeal.Read
import proofs.«133401_j19610820673536_1_alg».proof.Proof.ColumnScale
import proofs.«133401_j19610820673536_1_alg».proof.Proof.ReferenceScaled
import proofs.«133401_j19610820673536_1_alg».proof.Proof.KernelScaled
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the table and the weights, both idealized programs end with the scaled table. -/
theorem algebraic : Cert.algebraic_KernelIdeal_ReferenceIdeal := by
  intro m ρ m' ρ' _ hagree
  refine ⟨fun c => Cert.ColumnScale.scaled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Scaled.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Scaled.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
